-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x8192x1024 : Shape := ⟨3, ![12, 8192, 1024]⟩
abbrev S64x1024 : Shape := ⟨2, ![64, 1024]⟩
abbrev S64 : Shape := ⟨1, ![64]⟩
abbrev S_ : Shape := ⟨0, ![]⟩

class Facts : Prop where
  bcast_S_S12x8192x1024 : S_.BroadcastsInDim S12x8192x1024 (![] : Fin 0 → Fin S12x8192x1024.rank)
  reducesTo_S12x8192x1024_S_d0_1_2 : S12x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S12x8192x1024 .f32) (main_arg1 : FVec F S64x1024 .f32) (main_arg2 : FVec F S64 .f32) : IVec S_ 1 :=
  let main_v0 : FVec F S12x8192x1024 .f32 := Host.absf main_arg0
  let main_cst : FVec F S_ .f32 := constant S_ .f32 0x7F800000#32
  let main_v1 : FVec F S12x8192x1024 .f32 := broadcastInDim S12x8192x1024 ![] bcast_S_S12x8192x1024 main_cst
  let main_v2 : IVec S12x8192x1024 1 := cmpf .olt main_v0 main_v1
  let main_c : IVec S_ 1 := constantI S_ 1 1#1
  let main_v3 : IVec S_ 1 := (fun x v => Host.reduce IntOp.andi x v reducesTo_S12x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S12x8192x1024 : Shape := ⟨3, ![12, 8192, 1024]⟩
abbrev S64x1024 : Shape := ⟨2, ![64, 1024]⟩
abbrev S64 : Shape := ⟨1, ![64]⟩
abbrev S_ : Shape := ⟨0, ![]⟩
abbrev S128x1024 : Shape := ⟨2, ![128, 1024]⟩
abbrev S128 : Shape := ⟨1, ![128]⟩
abbrev S1x128 : Shape := ⟨2, ![1, 128]⟩
abbrev S8192x128 : Shape := ⟨2, ![8192, 128]⟩
abbrev S12x512x1024 : Shape := ⟨3, ![12, 512, 1024]⟩
abbrev S512x128 : Shape := ⟨2, ![512, 128]⟩
abbrev S512x1024 : Shape := ⟨2, ![512, 1024]⟩
abbrev S1024x128 : Shape := ⟨2, ![1024, 128]⟩
abbrev S8192x64 : Shape := ⟨2, ![8192, 64]⟩

abbrev nBuf : Space → Nat
  | .hbm => 12
  | .vmem => 6
  | .smem => 0
  | _ => 0

abbrev bufTy : (tb : Table) → Fin (tcTables nBuf tb) → BufTy
  | .hbm, ⟨0, _⟩ => ⟨S12x8192x1024, .f32⟩
  | .hbm, ⟨1, _⟩ => ⟨S64x1024, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S128x1024, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S8192x128, .f32⟩
  | .hbm, ⟨11, _⟩ => ⟨S8192x64, .f32⟩
  | .local _ .vmem, ⟨0, _⟩ => ⟨S12x512x1024, .f32⟩
  | .local _ .vmem, ⟨1, _⟩ => ⟨S12x512x1024, .f32⟩
  | .local _ .vmem, ⟨2, _⟩ => ⟨S128x1024, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S12x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S64x1024_S128x1024_0640_000 : S64x1024.Pads (![0, 0] : Fin 2 → Nat) ![64, 0] ![0, 0] S128x1024
  h_S_ : 0 < S_.numel
  pads_S64_S128_0640 : S64.Pads (![0] : Fin 1 → Nat) ![64] ![0] S128
  shapeCasts_S128_S1x128 : S128.ShapeCasts S1x128
  inb_S12x512x1024_S12x512x1024_0_0_0 : ∀ a, (![0, 0, 0] : Fin 3 → Nat) a + S12x512x1024.size a ≤ S12x512x1024.size a
  h_S12x512x1024 : 0 < S12x512x1024.numel
  reduces_S12x512x1024_S512x1024 : S12x512x1024.Reduces [0] S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  transposes_S128x1024_p1_0_S1024x128 : S128x1024.Transposes [1, 0] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S8192x128_S8192x64_0_0 : S8192x128.Slices ![0, 0] S8192x64
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x512x1024.size a ≤ S12x8192x1024.size a
  hwx0_0 : ∀ i : grid0.Coords, EltTy.bits .f32 = 32 ∨ (Rect.block (s := S12x8192x1024) S12x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S12x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S12x8192x1024 : Shape := ⟨3, ![12, 8192, 1024]⟩
abbrev S64x1024 : Shape := ⟨2, ![64, 1024]⟩
abbrev S64 : Shape := ⟨1, ![64]⟩
abbrev S_ : Shape := ⟨0, ![]⟩
abbrev S8192x1024 : Shape := ⟨2, ![8192, 1024]⟩
abbrev S8192x64 : Shape := ⟨2, ![8192, 64]⟩
abbrev S1x64 : Shape := ⟨2, ![1, 64]⟩

abbrev nBuf : Space → Nat
  | .hbm => 13
  | .vmem => 0
  | .smem => 0
  | _ => 0

abbrev bufTy : (tb : Table) → Fin (tcTables nBuf tb) → BufTy
  | .hbm, ⟨0, _⟩ => ⟨S12x8192x1024, .f32⟩
  | .hbm, ⟨1, _⟩ => ⟨S64x1024, .f32⟩
  | .hbm, ⟨2, _⟩ => ⟨S64, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S8192x64, .f32⟩
  | _, _ => ⟨S12x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S12x8192x1024_S8192x1024_d0 : S12x8192x1024.ReducesTo [0] S8192x1024
  h_S_ : 0 < S_.numel
  bcast_S_S8192x1024 : S_.BroadcastsInDim S8192x1024 (![] : Fin 0 → Fin S8192x1024.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x1024_S64x1024_S8192x64_1_1_0_0_n_n_wf : DotDims.WF S8192x1024 S64x1024 S8192x64 [1] [1] [0] [0] [] []

variable [Facts₀]

def dot_S8192x1024_S64x1024_S8192x64_1_1_0_0_n_n : DotDims S8192x1024 S64x1024 S8192x64 where
  lhsContracting := [1]
  rhsContracting := [1]
  lhsNonContracting := [0]
  rhsNonContracting := [0]
  lhsBatch := []
  rhsBatch := []
  wf := dot_S8192x1024_S64x1024_S8192x64_1_1_0_0_n_n_wf

class Facts : Prop extends Facts₀ where

variable [Facts]
-- ==== Proof.Payload.lean ====
/-
  What the accelerator program's body stores, read at one entry of its [512, 128] block.

  The body loads a [12, 512, 1024] block `x0` of the input, the whole padded weight matrix `x1` ([128, 1024]) and
  the padded bias row `x2` ([1, 128]); it sums `x0` over its first axis, divides by 12.0, multiplies by the
  transposed weights on the matrix unit into a zero accumulator, adds the bias row broadcast over the 512 rows and
  applies tanh. Read at row `p`, column `q` over the extended reals this is

      tanh ( (∑ d, (∑ l, x0[l, p, d]) / 12 · x1[q, d]) + x2[0, q] ):

  the reduction over one axis is a finite sum, the matrix product into zero is the sum over the contracted axis of
  the products, the transpose swaps the two coordinates of `x1`, and the shape casts to the same shape are identities.
-/
import proofs.«143912_j87497073754448_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The sum over the 12 layers of a block, at row `p` and feature `d`. -/
theorem layerSum_apply (x0 : FVec Ideal S12x512x1024 .f32) (hacc : (0x00000000#32 : BitVec 32) = 0x00000000#32)
    (p : Fin 512) (d : Fin 1024) :
    multiReduction (F := Ideal) .add [0] S512x1024 x0 0x00000000#32 reduces_S12x512x1024_S512x1024 (.inl rfl) hacc (ix2 p d)
      = ∑ l : Fin 12, x0 (ix3 l p d) := by
  refine (Ideal.multiReduction_add_single x0 0x00000000#32 reduces_S12x512x1024_S512x1024 (.inl rfl) hacc (ix2 p d)).trans ?_
  refine Finset.sum_congr rfl fun l _ => congrArg x0 (funext fun a => Fin.ext ?_)
  match a with
  | ⟨0, _⟩ => rfl
  | ⟨1, _⟩ => rfl
  | ⟨2, _⟩ => rfl

/-- The left operand's index at output entry `i` and contraction index `r`: row from `i`, column `r`. -/
theorem lhs_row (i : S512x128.Idx) (r : dot_S512x1024_S1024x128_S512x128_1_0_0_1_n_n.contr.Idx) :
    (dot_S512x1024_S1024x128_S512x128_1_0_0_1_n_n.lhsIdx i r 0).val = (i 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl
theorem lhs_col (i : S512x128.Idx) (r : dot_S512x1024_S1024x128_S512x128_1_0_0_1_n_n.contr.Idx) :
    (dot_S512x1024_S1024x128_S512x128_1_0_0_1_n_n.lhsIdx i r 1).val = (r ⟨0, by decide⟩).val :=
  dot_S512x1024_S1024x128_S512x128_1_0_0_1_n_n.lhsIdx_val_of_single rfl i r
/-- The right operand's index: row `r`, column from `i`. -/
theorem rhs_row (i : S512x128.Idx) (r : dot_S512x1024_S1024x128_S512x128_1_0_0_1_n_n.contr.Idx) :
    (dot_S512x1024_S1024x128_S512x128_1_0_0_1_n_n.rhsIdx i r 0).val = (r ⟨0, by decide⟩).val :=
  dot_S512x1024_S1024x128_S512x128_1_0_0_1_n_n.rhsIdx_val_of_single rfl i r
theorem rhs_col (i : S512x128.Idx) (r : dot_S512x1024_S1024x128_S512x128_1_0_0_1_n_n.contr.Idx) :
    (dot_S512x1024_S1024x128_S512x128_1_0_0_1_n_n.rhsIdx i r 1).val = (i 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl

/-- The matrix product of a [512, 1024] block `a` with the transpose of the [128, 1024] weights `w`, into zero,
    at row `p` and column `q`: the sum over the 1024 features of `a[p, d] · w[q, d]`. -/
theorem product_apply (a : FVec Ideal S512x1024 .f32) (w : FVec Ideal S128x1024 .f32) (p : Fin 512) (q : Fin 128) :
    matmul (F := Ideal) dot_S512x1024_S1024x128_S512x128_1_0_0_1_n_n (some .fp32) a
        (transpose S1024x128 [1, 0] w transposes_S128x1024_p1_0_S1024x128) (constant S512x128 .f32 0x00000000#32) (ix2 p q)
      = ∑ d : Fin 1024, a (ix2 p d) * w (ix2 q d) := by
  simp only [matmul]
  rw [Ideal.matmul_constant_zero_apply,
    ← Equiv.sum_comp (ValueIdx.contrEquiv1 dot_S512x1024_S1024x128_S512x128_1_0_0_1_n_n 1024 rfl rfl).symm]
  refine Finset.sum_congr rfl fun d _ => ?_
  have hd := ValueIdx.contrEquiv1_symm_val dot_S512x1024_S1024x128_S512x128_1_0_0_1_n_n 1024 rfl rfl d
  have el : dot_S512x1024_S1024x128_S512x128_1_0_0_1_n_n.lhsIdx (ix2 p q)
      ((ValueIdx.contrEquiv1 dot_S512x1024_S1024x128_S512x128_1_0_0_1_n_n 1024 rfl rfl).symm d) = ix2 p d :=
    funext fun c => Fin.ext (by
      match c with
      | ⟨0, _⟩ => exact lhs_row _ _
      | ⟨1, _⟩ => exact (lhs_col _ _).trans hd)
  have er : dot_S512x1024_S1024x128_S512x128_1_0_0_1_n_n.rhsIdx (ix2 p q)
      ((ValueIdx.contrEquiv1 dot_S512x1024_S1024x128_S512x128_1_0_0_1_n_n 1024 rfl rfl).symm d) = ix2 d q :=
    funext fun c => Fin.ext (by
      match c with
      | ⟨0, _⟩ => exact (rhs_row _ _).trans hd
      | ⟨1, _⟩ => exact rhs_col _ _)
  rw [el, er, ValueIdx.transpose_ix2_apply w transposes_S128x1024_p1_0_S1024x128 d q]

/-- THE BODY'S STORED VALUE at row `p`, column `q` of the block. -/
theorem stored_apply (x0 : Vec Ideal S12x512x1024 .f32) (x1 : Vec Ideal S128x1024 .f32) (x2 : Vec Ideal S1x128 .f32)
    (p : Fin 512) (q : Fin 128) :
    k0_pay1 (F := Ideal) x0 x1 x2 (ix2 p q)
      = Ideal.tanh ((∑ d : Fin 1024, Ideal.div (∑ l : Fin 12, x0 (ix3 l p d)) (Ideal.ofBits .f32 0x41400000#32) * x1 (ix2 q d))
          + x2 (ix2 (0 : Fin 1) q)) := by
  unfold k0_pay1
  show Ideal.tanh (_ + _) = _
  rw [shapeCast_self, shapeCast_self, product_apply, ValueIdx.broadcastTo_1b_ab_apply x2 broadcasts_S1x128_S512x128 p q]
  refine congrArg (fun s => Ideal.tanh (s + x2 (ix2 (0 : Fin 1) q))) (Finset.sum_congr rfl fun d _ => ?_)
  rw [ValueIdx.divf_apply, layerSum_apply]
  rfl

end Cert.KernelIdeal.Body

end
-- ==== Proof.Spec.lean ====
/-
  The function both programs compute, written once over the extended reals.

  For an input `x` of shape [12, 8192, 1024] (layers, rows, features), a weight matrix `W` of shape [K, 1024]
  and a bias with one entry per output column, the result at row `b` and column `k` is

      tanh ( (∑ d, (∑ l, x[l, b, d]) / 12 · W[k, d]) + bias[k] ).

  The inner sum over the 12 layers divided by the literal 12.0 is the mean over layers; the outer sum over the
  1024 features is the matrix product of the mean with the transposed weights. Division is the extended reals'
  (`Ideal.div`) and the literal stays the word 0x41400000 on both sides, so it is never evaluated.
  The number of output columns `K` is left open: the accelerator program works with the weights and the bias
  padded to 128 columns and cuts the result back to 64, the plain program works with 64 columns throughout.
  A column's value depends only on that column's row of `W` and entry of the bias (`head_congr`), which is
  why the padding never shows.
-/
import Idealize.ShloMosaic.PureOps.Ideal
import Idealize.ShloMosaic.Lib.ValueIdx

noncomputable section

open scoped BigOperators

namespace Cert.LayerMeanHead

open Idealize.ShloMosaic Idealize.ShloMosaic.ValueIdx

/-- The mean over the 12 layers of `x` at row `b`, feature `d`: the sum of the 12 entries divided by 12.0. -/
def layerMean (x : (⟨3, ![12, 8192, 1024]⟩ : Shape).Idx → EReal) (b : Fin 8192) (d : Fin 1024) : EReal :=
  Ideal.div (∑ l : Fin 12, x (ix3 l b d)) (Ideal.ofBits .f32 0x41400000#32)

/-- The result at row `b`, column `k`: tanh of the mean row's product with row `k` of `W`, plus the bias. -/
def head {K : Nat} (x : (⟨3, ![12, 8192, 1024]⟩ : Shape).Idx → EReal) (W : (⟨2, ![K, 1024]⟩ : Shape).Idx → EReal)
    (bias : Fin K → EReal) (b : Fin 8192) (k : Fin K) : EReal :=
  Ideal.tanh ((∑ d : Fin 1024, layerMean x b d * W (ix2 k d)) + bias k)

/-- A column of the result depends on `W` and the bias only through that column's row and entry: two weight
    matrices (of any numbers of columns) that agree on row `k` / `k'`, with biases that agree there, give the
    same value. -/
theorem head_congr {K K' : Nat} (x : (⟨3, ![12, 8192, 1024]⟩ : Shape).Idx → EReal)
    (W : (⟨2, ![K, 1024]⟩ : Shape).Idx → EReal) (bias : Fin K → EReal)
    (W' : (⟨2, ![K', 1024]⟩ : Shape).Idx → EReal) (bias' : Fin K' → EReal) (b : Fin 8192) (k : Fin K) (k' : Fin K')
    (hW : ∀ d : Fin 1024, W (ix2 k d) = W' (ix2 k' d)) (hb : bias k = bias' k') :
    head x W bias b k = head x W' bias' b k' := by
  unfold head
  rw [hb]
  exact congrArg (fun s => Ideal.tanh (s + bias' k')) (Finset.sum_congr rfl fun d _ => by rw [hW d])

end Cert.LayerMeanHead

end
-- ==== Proof.Blocks.lean ====
/-
  From the 16 blocks to the whole padded array.

  The grid has 16 points; point `t` reads rows [512·t, 512·t + 512) of every layer of the input, the whole padded
  weight matrix and the whole padded bias row, and writes rows [512·t, 512·t + 512) of a [8192, 128] array. So what
  point `t` writes back is block `t` of ONE function of the three arrays the region finds — at row `r`, column `k`
  the value `LayerMeanHead.head` of the input, the padded weights and the padded bias —, the 16 blocks cover the
  array (row `r` lies in block `r / 512`), and hence the array ends holding that function everywhere.
-/
import proofs.«143912_j87497073754448_2_alg».proof.Proof.Gen.KernelIdeal.Frame
import proofs.«143912_j87497073754448_2_alg».proof.Proof.Payload
import proofs.«143912_j87497073754448_2_alg».proof.Proof.Spec

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The padded result as one function of the input `X`, the padded weights `Wp` and the padded bias row `Bp`. -/
def padded (X : S12x8192x1024.Idx → EReal) (Wp : S128x1024.Idx → EReal) (Bp : S1x128.Idx → EReal) :
    S8192x128.Idx → EReal :=
  fun i => LayerMeanHead.head X Wp (fun k => Bp (ix2 (0 : Fin 1) k)) (i 0) (i 1)

theorem padded_ix2 (X : S12x8192x1024.Idx → EReal) (Wp : S128x1024.Idx → EReal) (Bp : S1x128.Idx → EReal)
    (r : Fin 8192) (k : Fin 128) :
    padded X Wp Bp (ix2 r k) = LayerMeanHead.head X Wp (fun k => Bp (ix2 (0 : Fin 1) k)) r k := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the input's block moves along the rows with the output's block and sits at 0 on the
    other two axes; the weights' and the bias's blocks never move; the output's block index is below 16 on the rows and
    0 on the columns. -/
theorem idx_facts : ∀ t : Fin cfg0.N, win0_0.index t (0 : Fin 3) = 0
    ∧ win0_0.index t (1 : Fin 3) = win0_3.index t (0 : Fin 2)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every block of rows is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The input's block at point `t`, at layer `l`, block row `p`, feature `d`, is the input array at row
    `512·(block index) + p`. -/
theorem read_x (c : Dev nD) (t : Fin cfg0.N) (l : Fin 12) (p : Fin 512) (d : Fin 1024) (r : Fin 8192)
    (hr : r.val = win0_3.index t (0 : Fin 2) * 512 + p.val) :
    iblk m c 0 t (ix3 l p d) = V m c main_arg0 (ix3 l r d) := by
  show V m c main_arg0 (((cfg0.win 0).blk t).view.emb (ix3 l p d)) = V m c main_arg0 (ix3 l r d)
  obtain ⟨e0, e1, e2, -⟩ := idx_facts t
  refine congrArg (V m c main_arg0) (funext fun a => Fin.ext ?_)
  match a with
  | ⟨0, _⟩ => show win0_0.index t (0 : Fin 3) * 12 + 1 * l.val = l.val; omega
  | ⟨1, _⟩ => show win0_0.index t (1 : Fin 3) * 512 + 1 * p.val = r.val; omega
  | ⟨2, _⟩ => show win0_0.index t (2 : Fin 3) * 1024 + 1 * d.val = d.val; omega

/-- The weights' block is the whole padded weight matrix. -/
theorem read_w (c : Dev nD) (t : Fin cfg0.N) (q : Fin 128) (d : Fin 1024) :
    iblk m c 1 t (ix2 q d) = V m c main_v0 (ix2 q d) := by
  show V m c main_v0 (((cfg0.win 1).blk t).view.emb (ix2 q d)) = V m c main_v0 (ix2 q d)
  obtain ⟨-, -, -, e3, e4, -⟩ := idx_facts t
  refine congrArg (V m c main_v0) (funext fun a => Fin.ext ?_)
  match a with
  | ⟨0, _⟩ => show win0_1.index t (0 : Fin 2) * 128 + 1 * q.val = q.val; omega
  | ⟨1, _⟩ => show win0_1.index t (1 : Fin 2) * 1024 + 1 * d.val = d.val; omega

/-- The bias's block is the whole padded bias row. -/
theorem read_b (c : Dev nD) (t : Fin cfg0.N) (q : Fin 128) :
    iblk m c 2 t (ix2 (0 : Fin 1) q) = V m c main_v2 (ix2 (0 : Fin 1) q) := by
  show V m c main_v2 (((cfg0.win 2).blk t).view.emb (ix2 (0 : Fin 1) q)) = V m c main_v2 (ix2 (0 : Fin 1) q)
  obtain ⟨-, -, -, -, -, e5, e6, -⟩ := idx_facts t
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- WHAT POINT `t` WRITES BACK is block `t` of the padded result of the arrays as the region finds them. -/
theorem flushed_eq (c : Dev nD) (t : Fin cfg0.N) :
    (dats m 0 c).flushed 3 t
      = ((cfg0.win 3).blk t).view.read (Elt Ideal) (padded (V m c main_arg0) (V m c main_v0) (V m c main_v2)) := by
  show (cfg0.win 3).cut (grid0.coords t) ((dats m 0 c).after 3 t) = _
  rw [after0_3]
  unfold out0_3
  rw [View.canon_unit_zero hz2]
  simp only [View.ld_unit_zero (S := S12x512x1024) hz3, View.ld_unit_zero (S := S128x1024) hz2,
    View.ld_unit_zero (S := S1x128) hz2]
  refine funext fun (j : S512x128.Idx) => ?_
  obtain ⟨p, q, rfl⟩ : ∃ (p : Fin 512) (q : Fin 128), j = ix2 p q := ⟨j 0, j 1, eq_ix2 j⟩
  obtain ⟨-, -, -, -, -, -, -, e7, e8⟩ := idx_facts t
  have hp : p.val < 512 := p.isLt
  let r : Fin 8192 := ⟨win0_3.index t (0 : Fin 2) * 512 + p.val, by omega⟩
  have hemb : ((cfg0.win 3).blk t).view.emb (ix2 p q) = ix2 r q := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 128 + 1 * q.val = q.val; omega
  show k0_pay1 (iblk m c 0 t) (iblk m c 1 t) (iblk m c 2 t) (ix2 p q)
    = padded (V m c main_arg0) (V m c main_v0) (V m c main_v2) (((cfg0.win 3).blk t).view.emb (ix2 p q))
  refine (Body.stored_apply (iblk m c 0 t) (iblk m c 1 t) (iblk m c 2 t) p q).trans ?_
  refine Eq.trans ?_ (congrArg (padded (V m c main_arg0) (V m c main_v0) (V m c main_v2)) hemb).symm
  rw [padded_ix2]
  unfold LayerMeanHead.head LayerMeanHead.layerMean
  refine congrArg₂ (fun s b => Ideal.tanh (s + b)) (Finset.sum_congr rfl fun d _ => ?_) (read_b m c t q)
  exact congrArg₂ (fun s w => Ideal.div s (Ideal.ofBits .f32 0x41400000#32) * w)
    (Finset.sum_congr rfl fun l _ => read_x m c t l p d r rfl) (read_w m c t q d)

/-- An index of the padded array is in point `t`'s block iff each coordinate is in the block's range on its axis. -/
theorem mem_blk (t : Fin cfg0.N) (i : S8192x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v3).slice (win0_3.rect t)).set ↔ _
  rw [View.set_slice_whole, Rect.mem_set_unit]
  exact Iff.rfl

/-- THE COVER: row `r` is in the block of the point whose block index is `r / 512`. -/
theorem cover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 128 ≤ (i 1).val ∧ (i 1).val < win0_3.index t (1 : Fin 2) * 128 + 128
    omega

/-- THE PADDED ARRAY after the region: the padded result of the arrays as the region finds them, everywhere. -/
theorem final (c : Dev nD) :
    (dats m 0 c).arrAt 3 cfg0.N = padded (V m c main_arg0) (V m c main_v0) (V m c main_v2) :=
  (dats m 0 c).arrAt_eq_of_cover 3 _ (fun t _ => flushed_eq m c t) (fun i => cover i)

end Cert.KernelIdeal.Blocks

end
-- ==== Proof.HostGlue.lean ====
/-
  The host operations around the region, read at an index.

  Before the region the weight matrix [64, 1024] is padded with 64 further rows to [128, 1024], and the bias [64]
  is padded with 64 further entries to [128] and reshaped to one row [1, 128]. After the region the [8192, 128]
  array is cut to its first 64 columns. Rows and entries below 64 of the padded arrays are the original ones
  (whatever the padding value is: it is never read below), and the cut reads the padded array at the same row and
  column.
-/
import proofs.«143912_j87497073754448_2_alg».proof.Proof.Gen.KernelIdeal.Frame
import Idealize.ShloMosaic.Lib.StableHlo.Run
import Idealize.ShloMosaic.Lib.KernelVsHost
import Idealize.ShloMosaic.Lib.ValueIdx
import Idealize.ShloMosaic.Lib.ValueLayout

noncomputable section

namespace Cert.KernelIdeal.HostGlue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-- The padded weight matrix as the region finds it: the pad of the weight argument. -/
theorem V_weights (c : Dev nD) :
    (V m c main_v0 : S128x1024.Idx → EReal)
      = pad S128x1024 ![0, 0] ![64, 0] ![0, 0] (m ((c : Thread nD τ).loc main_arg1))
          (sitofp (F := Ideal) .f32 (constantI S_ 32 0#32)) pads_S64x1024_S128x1024_0640_000 h_S_ := by
  dsimp only [V, V0]
  simp only [hostOps0, hostOps0_1, hostOps0_2, hostOps0_3, hostOps0_4, List.flatten_cons, List.flatten_nil,
    List.append_nil, List.cons_append, List.nil_append]
  after_results
  rfl

/-- Row `k < 64` of the padded weight matrix is row `k` of the weight argument. -/
theorem weights_row (c : Dev nD) (k : Fin 64) (k' : Fin 128) (hk : k'.val = k.val) (d : Fin 1024) :
    V m c main_v0 (ix2 k' d) = m ((c : Thread nD τ).loc main_arg1) (ix2 k d) :=
  (congrFun (V_weights m c) (ix2 k' d)).trans
    (pad_apply_of_inside _ _ _ _ _ pads_S64x1024_S128x1024_0640_000 h_S_ (ix2 k' d) (ix2 k d) fun a => by
      match a with
      | ⟨0, _⟩ => show k'.val = 0 + k.val * (0 + 1); omega
      | ⟨1, _⟩ => show d.val = 0 + d.val * (0 + 1); omega)

/-- The padded bias row as the region finds it: the pad of the bias argument, as one row. -/
theorem V_bias (c : Dev nD) :
    (V m c main_v2 : S1x128.Idx → EReal)
      = shapeCast S1x128 (pad S128 ![0] ![64] ![0] (m ((c : Thread nD τ).loc main_arg2))
          (sitofp (F := Ideal) .f32 (constantI S_ 32 0#32)) pads_S64_S128_0640 h_S_) shapeCasts_S128_S1x128 := by
  dsimp only [V, V0]
  simp only [hostOps0, hostOps0_1, hostOps0_2, hostOps0_3, hostOps0_4, List.flatten_cons, List.flatten_nil,
    List.append_nil, List.cons_append, List.nil_append]
  after_results
  rfl

/-- Entry `k < 64` of the padded bias row is entry `k` of the bias argument. -/
theorem bias_entry (c : Dev nD) (k : Fin 64) (k' : Fin 128) (hk : k'.val = k.val) :
    V m c main_v2 (ix2 (0 : Fin 1) k') = m ((c : Thread nD τ).loc main_arg2) (ix1 k) :=
  (congrFun (V_bias m c) (ix2 (0 : Fin 1) k')).trans
    ((ValueIdx.shapeCast_a_1a_apply _ shapeCasts_S128_S1x128 (0 : Fin 1) k').trans
      (pad_apply_of_inside _ _ _ _ _ pads_S64_S128_0640 h_S_ (ix1 k') (ix1 k) fun a => by
        match a with
        | ⟨0, _⟩ => show k'.val = 0 + k.val * (0 + 1); omega))

/-- The result buffer after the last host operation: the first 64 columns of the padded array the region leaves. -/
theorem tail_eq (c : Dev nD) :
    (Pipeline.afterTail₀ cfgs (dats m) 0 (V0 m) [hostOps1] c main_v4 : S8192x64.Idx → EReal)
      = extractStridedSlice S8192x64 ![0, 0] ((dats m 0 c).arrAt 3 cfg0.N) slices_S8192x128_S8192x64_0_0 := by
  unfold Pipeline.afterTail₀
  show StableHlo.after hostOps1 _ (Proc.devRef .tc main_v4) = _
  after_results
  exact congrArg (fun a => extractStridedSlice S8192x64 ![0, 0] a slices_S8192x128_S8192x64_0_0)
    (Pipeline.withArrays_arr spec0 launch0.win.arr_inj c _ _ 3)

end Cert.KernelIdeal.HostGlue

end
-- ==== Proof.KernelRun.lean ====
/-
  The accelerator program's run, read: its result buffer ends holding `LayerMeanHead.head` of its three arguments
  with 64 output columns, and the arguments end unchanged.

  The region leaves the [8192, 128] array at the padded result of the input, the padded weights and the padded bias
  row (`Blocks.final`); the last host operation keeps columns below 64 (`HostGlue.tail_eq`); and a column below
  64 of the padded result only reads row `k < 64` of the padded weights and entry `k < 64` of the padded bias,
  which are the arguments' (`HostGlue.weights_row`, `HostGlue.bias_entry`, `LayerMeanHead.head_congr`).
-/
import proofs.«143912_j87497073754448_2_alg».proof.Proof.Blocks
import proofs.«143912_j87497073754448_2_alg».proof.Proof.HostGlue

noncomputable section

namespace Cert.KernelIdeal.Result

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The result as a function of the three argument arrays. -/
def result (x : S12x8192x1024.Idx → EReal) (W : S64x1024.Idx → EReal) (b : S64.Idx → EReal) : S8192x64.Idx → EReal :=
  fun i => LayerMeanHead.head x W (fun k => b (ix1 k)) (i 0) (i 1)

/-- What the result buffer holds after the last host operation. -/
theorem result_eq (c : Dev nD) :
    (Pipeline.afterTail₀ cfgs (dats m) 0 (V0 m) [hostOps1] c main_v4 : S8192x64.Idx → EReal)
      = result (m ((c : Thread nD τ).loc main_arg0)) (m ((c : Thread nD τ).loc main_arg1))
          (m ((c : Thread nD τ).loc main_arg2)) := by
  refine (HostGlue.tail_eq m c).trans ?_
  rw [Blocks.final m c]
  funext i
  obtain ⟨r, k, rfl⟩ : ∃ (r : Fin 8192) (k : Fin 64), i = ix2 r k := ⟨i 0, i 1, eq_ix2 i⟩
  have hk : k.val < 128 := by have := k.isLt; omega
  refine (ValueIdx.slice2_axis1_apply 0 _ slices_S8192x128_S8192x64_0_0 r k (⟨k.val, hk⟩ : Fin 128)
    (by show k.val = 0 + k.val; omega)).trans ?_
  rw [Blocks.padded_ix2, V_main_arg0]
  exact LayerMeanHead.head_congr _ _ _ _ _ r (⟨k.val, hk⟩ : Fin 128) k
    (fun d => HostGlue.weights_row m c k ⟨k.val, hk⟩ rfl d) (HostGlue.bias_entry m c k ⟨k.val, hk⟩ rfl)

/-- THE RUN, READ: every weakly fair execution terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The plain program's result is `LayerMeanHead.head` of its three arguments, with 64 output columns.

  Its ten operations, read one at a time at an index: the sum over the first axis started from the constant 0, the
  quotient by the broadcast constant 12.0, the contraction of the features of the mean with the features of row `k`
  of `W`, the bias broadcast over the rows, the sum and tanh. The only arithmetic step is `0 + s = s` for the
  reduction's initial value.
-/
import proofs.«143912_j87497073754448_2_alg».proof.Proof.Gen.ReferenceIdeal.Read
import proofs.«143912_j87497073754448_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The entries of the input that reduce to (row `r`, feature `d`): layer `l` of that row and feature. -/
theorem layer_idx (r : Fin 8192) (d : Fin 1024) (l : Fin 12) : idx_main_v0 (ix2 r d) l = ix3 l r d :=
  funext fun a => Fin.ext (by match a with | ⟨0, _⟩ => rfl | ⟨1, _⟩ => rfl | ⟨2, _⟩ => rfl)

/-- The contraction's left operand at (row `r`, column `k`), feature `d`: the mean at (r, d). -/
theorem mean_idx (r : Fin 8192) (k : Fin 64) (d : Fin 1024) : lidx_main_v3 (ix2 r k) d = ix2 r d :=
  funext fun a => Fin.ext (by match a with | ⟨0, _⟩ => rfl | ⟨1, _⟩ => rfl)

/-- Its right operand: the weights at (k, d). -/
theorem weight_idx (r : Fin 8192) (k : Fin 64) (d : Fin 1024) : ridx_main_v3 (ix2 r k) d = ix2 k d :=
  funext fun a => Fin.ext (by match a with | ⟨0, _⟩ => rfl | ⟨1, _⟩ => rfl)

/-- The bias entry broadcast to (row `r`, column `k`): entry `k`. -/
theorem bias_idx (r : Fin 8192) (k : Fin 64) : idx_main_v4 (idx_main_v5 (ix2 r k)) = ix1 k :=
  funext fun a => Fin.ext (by match a with | ⟨0, _⟩ => rfl)

/-- The quotient stage is the mean over the layers. -/
theorem mean_eq (x0 : (⟨S12x8192x1024, .f32⟩ : BufTy).Contents (Elt Ideal)) (r : Fin 8192) (d : Fin 1024) :
    val_main_v2 (F := Ideal) x0 (ix2 r d) = LayerMeanHead.layerMean x0 r d := by
  rw [val_main_v2_apply, val_main_v0_apply, val_main_v1_apply]
  simp only [layer_idx]
  show Ideal.div (Ideal.ofBits .f32 0x00000000#32 + ∑ l : Fin 12, x0 (ix3 l r d)) (Ideal.ofBits .f32 0x41400000#32) = _
  rw [Ideal.ofBits_zero_f32, zero_add]
  rfl

/-- THE PLAIN PROGRAM'S RESULT, index by index. -/
theorem result_eq (x0 : (⟨S12x8192x1024, .f32⟩ : BufTy).Contents (Elt Ideal))
    (x1 : (⟨S64x1024, .f32⟩ : BufTy).Contents (Elt Ideal)) (x2 : (⟨S64, .f32⟩ : BufTy).Contents (Elt Ideal)) :
    val_main_v7 (F := Ideal) x0 x1 x2
      = fun i => LayerMeanHead.head x0 x1 (fun k => x2 (ix1 k)) (i 0) (i 1) := by
  funext i
  obtain ⟨r, k, rfl⟩ : ∃ (r : Fin 8192) (k : Fin 64), i = ix2 r k := ⟨i 0, i 1, eq_ix2 i⟩
  rw [val_main_v7_apply, val_main_v6_apply, val_main_v3_apply, val_main_v5_apply, val_main_v4_apply]
  simp only [mean_idx, weight_idx, bias_idx, mean_eq]
  rfl

end Cert.ReferenceIdeal.RefValue

end
-- ==== Proof.lean ====
/-
  Both programs compute, at row `b` and column `k` of an [8192, 64] result,

      tanh ( (∑ d, (∑ l, x[l, b, d]) / 12 · W[k, d]) + bias[k] )

  over the extended reals (`LayerMeanHead.head`, Proof/Spec.lean): the mean of `x` over its 12 layers, multiplied by
  the transposed weights, plus the bias, through tanh.

  The accelerator program pads the weights and the bias to 128 columns on the host, computes 16 blocks of 512 rows of
  a [8192, 128] array in its one region, and cuts the first 64 columns on the host. Per block the body's stored value
  is the formula above of the block's loads (Proof/Payload.lean: a reduction over one axis is a finite sum, a matrix
  product into zero is the sum of products over the contracted axis); the blocks are restrictions of one function of
  the arrays and cover the padded array (Proof/Blocks.lean); a column below 64 reads only rows and entries below 64 of
  the padded weights and bias, which are the arguments' (Proof/HostGlue.lean, Proof/KernelRun.lean). The plain program
  computes the formula operation by operation (Proof/RefValue.lean); the one arithmetic step is `0 + s = s` for its
  reduction's initial value. Both sides keep the same sums in the same shape and the same literal 12.0, so no law of
  the extended reals beyond that is used and the finiteness precondition is never opened.

  The three frames are the generated ones (for the plain program, its generated run with the result dropped), and
  nothing was rewritten by the idealization, so `preserves` is `True`.
-/
import proofs.«143912_j87497073754448_2_alg».proof.Defs
import proofs.«143912_j87497073754448_2_alg».proof.Proof.Gen.Kernel
import proofs.«143912_j87497073754448_2_alg».proof.Proof.Gen.Kernel.Skeleton
import proofs.«143912_j87497073754448_2_alg».proof.Proof.Gen.Kernel.Launch
import proofs.«143912_j87497073754448_2_alg».proof.Proof.Gen.Kernel.Points
import proofs.«143912_j87497073754448_2_alg».proof.Proof.Gen.Kernel.Frame
import proofs.«143912_j87497073754448_2_alg».proof.Proof.Gen.KernelIdeal
import proofs.«143912_j87497073754448_2_alg».proof.Proof.Gen.KernelIdeal.Skeleton
import proofs.«143912_j87497073754448_2_alg».proof.Proof.Gen.KernelIdeal.Launch
import proofs.«143912_j87497073754448_2_alg».proof.Proof.Gen.KernelIdeal.Points
import proofs.«143912_j87497073754448_2_alg».proof.Proof.Gen.KernelIdeal.Frame
import proofs.«143912_j87497073754448_2_alg».proof.Proof.Gen.ReferenceIdeal
import proofs.«143912_j87497073754448_2_alg».proof.Proof.Gen.Pre_finite_inputs
import proofs.«143912_j87497073754448_2_alg».proof.Proof.Gen.ReferenceIdeal.Run
import proofs.«143912_j87497073754448_2_alg».proof.Proof.Gen.ReferenceIdeal.Read
import proofs.«143912_j87497073754448_2_alg».proof.Proof.KernelRun
import proofs.«143912_j87497073754448_2_alg».proof.Proof.RefValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The plain program's frame: its run, the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- The two results are one function of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
